-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4000 : Shape := ⟨3, ![4, 64, 4000]⟩
abbrev S4x4000x6000 : Shape := ⟨3, ![4, 4000, 6000]⟩
abbrev S4x6000 : Shape := ⟨2, ![4, 6000]⟩
abbrev S_ : Shape := ⟨0, ![]⟩

class Facts : Prop where
  bcast_S_S4x64x4000 : S_.BroadcastsInDim S4x64x4000 (![] : Fin 0 → Fin S4x64x4000.rank)
  reducesTo_S4x64x4000_S_d0_1_2 : S4x64x4000.ReducesTo [0, 1, 2] S_
  h_S_ : 0 < S_.numel
  bcast_S_S4x4000x6000 : S_.BroadcastsInDim S4x4000x6000 (![] : Fin 0 → Fin S4x4000x6000.rank)
  reducesTo_S4x4000x6000_S_d0_1_2 : S4x4000x6000.ReducesTo [0, 1, 2] S_
  bcast_S_S4x6000 : S_.BroadcastsInDim S4x6000 (![] : Fin 0 → Fin S4x6000.rank)
  reducesTo_S4x6000_S_d0_1 : S4x6000.ReducesTo [0, 1] S_

variable [Facts]

def fn_part1 {F : FTy → Type} [FloatOps F] (main_v13 : IVec S_ 1) (main_v15 : IVec S4x6000 1) (main_c_5 : IVec S_ 1) : IVec S_ 1 :=
  let main_v16 : IVec S_ 1 := (fun x v => Host.reduce IntOp.andi x v reducesTo_S4x6000_S_d0_1 h_S_) main_v15 main_c_5
  let main_v17 : IVec S_ 1 := andi main_v13 main_v16
  main_v17

def fn {F : FTy → Type} [FloatOps F] (main_arg0 : FVec F S4x64x4000 .f32) (main_arg1 : FVec F S4x4000x6000 .f32) (main_arg2 : FVec F S4x6000 .f32) : IVec S_ 1 :=
  let main_v0 : FVec F S4x64x4000 .f32 := Host.absf main_arg0
  let main_cst : FVec F S_ .f32 := constant S_ .f32 0x7F800000#32
  let main_v1 : FVec F S4x64x4000 .f32 := broadcastInDim S4x64x4000 ![] bcast_S_S4x64x4000 main_cst
  let main_v2 : IVec S4x64x4000 1 := cmpf .olt main_v0 main_v1
  let main_c : IVec S_ 1 := constantI S_ 1 1#1
  let main_v3 : IVec S_ 1 := (fun x v => Host.reduce IntOp.andi x v reducesTo_S4x64x4000_S_d0_1_2 h_S_) main_v2 main_c
  let main_v4 : FVec F S4x4000x6000 .f32 := Host.absf main_arg1
  let main_cst_0 : FVec F S_ .f32 := constant S_ .f32 0x7F800000#32
  let main_v5 : FVec F S4x4000x6000 .f32 := broadcastInDim S4x4000x6000 ![] bcast_S_S4x4000x6000 main_cst_0
  let main_v6 : IVec S4x4000x6000 1 := cmpf .olt main_v4 main_v5
  let main_c_1 : IVec S_ 1 := constantI S_ 1 1#1
  let main_v7 : IVec S_ 1 := (fun x v => Host.reduce IntOp.andi x v reducesTo_S4x4000x6000_S_d0_1_2 h_S_) main_v6 main_c_1
  let main_v8 : IVec S_ 1 := andi main_v3 main_v7
  let main_v9 : FVec F S4x6000 .f32 := Host.absf main_arg2
  let main_cst_2 : FVec F S_ .f32 := constant S_ .f32 0x7F800000#32
  let main_v10 : FVec F S4x6000 .f32 := broadcastInDim S4x6000 ![] bcast_S_S4x6000 main_cst_2
  let main_v11 : IVec S4x6000 1 := cmpf .olt main_v9 main_v10
  let main_c_3 : IVec S_ 1 := constantI S_ 1 1#1
  let main_v12 : IVec S_ 1 := (fun x v => Host.reduce IntOp.andi x v reducesTo_S4x6000_S_d0_1 h_S_) main_v11 main_c_3
  let main_v13 : IVec S_ 1 := andi main_v8 main_v12
  let main_cst_4 : FVec F S_ .f32 := constant S_ .f32 0x00000000#32
  let main_v14 : FVec F S4x6000 .f32 := broadcastInDim S4x6000 ![] bcast_S_S4x6000 main_cst_4
  let main_v15 : IVec S4x6000 1 := cmpf .une main_arg2 main_v14
  let main_c_5 : IVec S_ 1 := constantI S_ 1 1#1
  fn_part1 (F := F) main_v13 main_v15 main_c_5
-- ==== Kernel.lean ====
abbrev S4x64x4000 : Shape := ⟨3, ![4, 64, 4000]⟩
abbrev S4x4000x6000 : Shape := ⟨3, ![4, 4000, 6000]⟩
abbrev S4x6000 : Shape := ⟨2, ![4, 6000]⟩
abbrev S_ : Shape := ⟨0, ![]⟩
abbrev S4x1x6000 : Shape := ⟨3, ![4, 1, 6000]⟩
abbrev S4x64x6000 : Shape := ⟨3, ![4, 64, 6000]⟩
abbrev S1x64x4000 : Shape := ⟨3, ![1, 64, 4000]⟩
abbrev S1x4000x768 : Shape := ⟨3, ![1, 4000, 768]⟩
abbrev S1x1x768 : Shape := ⟨3, ![1, 1, 768]⟩
abbrev S1x64x768 : Shape := ⟨3, ![1, 64, 768]⟩
abbrev S64x4000 : Shape := ⟨2, ![64, 4000]⟩
abbrev S4000x768 : Shape := ⟨2, ![4000, 768]⟩
abbrev S64x768 : Shape := ⟨2, ![64, 768]⟩
abbrev S1x768 : Shape := ⟨2, ![1, 768]⟩

abbrev nBuf : Space → Nat
  | .hbm => 8
  | .vmem => 7
  | .smem => 0
  | _ => 0

abbrev bufTy : (tb : Table) → Fin (tcTables nBuf tb) → BufTy
  | .hbm, ⟨0, _⟩ => ⟨S4x64x4000, .f32⟩
  | .hbm, ⟨1, _⟩ => ⟨S4x4000x6000, .f32⟩
  | .hbm, ⟨2, _⟩ => ⟨S4x6000, .f32⟩
  | .hbm, ⟨3, _⟩ => ⟨S_, .f32⟩
  | .hbm, ⟨4, _⟩ => ⟨S4x6000, .f32⟩
  | .hbm, ⟨5, _⟩ => ⟨S4x6000, .f32⟩
  | .hbm, ⟨6, _⟩ => ⟨S4x1x6000, .f32⟩
  | .hbm, ⟨7, _⟩ => ⟨S4x64x6000, .f32⟩
  | .local _ .vmem, ⟨0, _⟩ => ⟨S1x64x4000, .f32⟩
  | .local _ .vmem, ⟨1, _⟩ => ⟨S1x4000x768, .f32⟩
  | .local _ .vmem, ⟨2, _⟩ => ⟨S1x4000x768, .f32⟩
  | .local _ .vmem, ⟨3, _⟩ => ⟨S1x1x768, .f32⟩
  | .local _ .vmem, ⟨4, _⟩ => ⟨S1x1x768, .f32⟩
  | .local _ .vmem, ⟨5, _⟩ => ⟨S1x64x768, .f32⟩
  | .local _ .vmem, ⟨6, _⟩ => ⟨S1x64x768, .f32⟩
  | _, _ => ⟨S4x64x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x64x4000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x6000 : S_.BroadcastsInDim S4x6000 (![] : Fin 0 → Fin S4x6000.rank)
  bcast_S4x6000_S4x1x6000_0_2 : S4x6000.BroadcastsInDim S4x1x6000 (![0, 2] : Fin 2 → Fin S4x1x6000.rank)
  inb_S1x64x4000_S1x64x4000_0_0_0 : ∀ a, (![0, 0, 0] : Fin 3 → Nat) a + S1x64x4000.size a ≤ S1x64x4000.size a
  h_S1x64x4000 : 0 < S1x64x4000.numel
  shapeCasts_S1x64x4000_S64x4000 : S1x64x4000.ShapeCasts S64x4000
  bitsLt_bf16_f32 : FTy.bits .bf16 < FTy.bits .f32
  inb_S1x4000x768_S1x4000x768_0_0_0 : ∀ a, (![0, 0, 0] : Fin 3 → Nat) a + S1x4000x768.size a ≤ S1x4000x768.size a
  h_S1x4000x768 : 0 < S1x4000x768.numel
  shapeCasts_S1x4000x768_S4000x768 : S1x4000x768.ShapeCasts S4000x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  iota_S64x768_d1_w32 : S64x768.Iotas .tc 32 [1]
  broadcasts_S1x768_S64x768 : S1x768.Broadcasts S64x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  shapeCasts_S64x768_S1x64x768 : S64x768.ShapeCasts S1x64x768
  dot_S64x4000_S4000x768_S64x768_1_0_0_1_n_n_wf : DotDims.WF S64x4000 S4000x768 S64x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64x4000.size a ≤ S4x64x4000.size a
  hwx0_0 : ∀ i : grid0.Coords, EltTy.bits .f32 = 32 ∨ (Rect.block (s := S4x64x4000) S1x64x4000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x4000x768.size a < S4x4000x6000.size a
  hwx0_1 : ∀ i : grid0.Coords, EltTy.bits .f32 = 32 ∨ (Rect.unit (s := S4x4000x6000) (fun a => cc0_transform_1 i a * S1x4000x768.size a) (fun a => (Pipeline.Clip.of (cc0_transform_1 i a) (S1x4000x768.size a) (S4x4000x6000.size a)).extent (S1x4000x768.size a)) fun a => Pipeline.Clip.inb (Pipeline.Clip.ok_of (hstart0_1 i a))).WholeWords (EltTy.packing .f32)
  hwxs0_1 : ∀ i : grid0.Coords, EltTy.bits .f32 = 32 ∨ (Rect.unit (s := S1x4000x768) (fun _ => 0) (fun a => (Pipeline.Clip.of (cc0_transform_1 i a) (S1x4000x768.size a) (S4x4000x6000.size a)).extent (S1x4000x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1x768.size a < S4x1x6000.size a
  hwx0_2 : ∀ i : grid0.Coords, EltTy.bits .f32 = 32 ∨ (Rect.unit (s := S4x1x6000) (fun a => cc0_transform_2 i a * S1x1x768.size a) (fun a => (Pipeline.Clip.of (cc0_transform_2 i a) (S1x1x768.size a) (S4x1x6000.size a)).extent (S1x1x768.size a)) fun a => Pipeline.Clip.inb (Pipeline.Clip.ok_of (hstart0_2 i a))).WholeWords (EltTy.packing .f32)
  hwxs0_2 : ∀ i : grid0.Coords, EltTy.bits .f32 = 32 ∨ (Rect.unit (s := S1x1x768) (fun _ => 0) (fun a => (Pipeline.Clip.of (cc0_transform_2 i a) (S1x1x768.size a) (S4x1x6000.size a)).extent (S1x1x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x64x768.size a < S4x64x6000.size a
  hwx0_3 : ∀ i : grid0.Coords, EltTy.bits .f32 = 32 ∨ (Rect.unit (s := S4x64x6000) (fun a => cc0_transform_3 i a * S1x64x768.size a) (fun a => (Pipeline.Clip.of (cc0_transform_3 i a) (S1x64x768.size a) (S4x64x6000.size a)).extent (S1x64x768.size a)) fun a => Pipeline.Clip.inb (Pipeline.Clip.ok_of (hstart0_3 i a))).WholeWords (EltTy.packing .f32)
  hwxs0_3 : ∀ i : grid0.Coords, EltTy.bits .f32 = 32 ∨ (Rect.unit (s := S1x64x768) (fun _ => 0) (fun a => (Pipeline.Clip.of (cc0_transform_3 i a) (S1x64x768.size a) (S4x64x6000.size a)).extent (S1x64x768.size a)) fun a => (Nat.zero_add _).trans_le (Pipeline.Clip.extent_le (Pipeline.Clip.ok_of (hstart0_3 i a)))).WholeWords (EltTy.packing .f32)

variable [Facts₀]

def dot_S64x4000_S4000x768_S64x768_1_0_0_1_n_n : DotDims S64x4000 S4000x768 S64x768 where
  lhsContracting := [1]
  rhsContracting := [0]
  lhsNonContracting := [0]
  rhsNonContracting := [1]
  lhsBatch := []
  rhsBatch := []
  wf := dot_S64x4000_S4000x768_S64x768_1_0_0_1_n_n_wf

abbrev win0_0 : Pipeline.Window sig grid0 :=
  Pipeline.Window.ofSpec (Memref.whole main_arg0) S1x64x4000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1x4000x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S1x1x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S1x64x768.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x4000 : Shape := ⟨3, ![4, 64, 4000]⟩
abbrev S4x4000x6000 : Shape := ⟨3, ![4, 4000, 6000]⟩
abbrev S4x6000 : Shape := ⟨2, ![4, 6000]⟩
abbrev S4x1x6000 : Shape := ⟨3, ![4, 1, 6000]⟩
abbrev S4x64x6000 : Shape := ⟨3, ![4, 64, 6000]⟩

abbrev nBuf : Space → Nat
  | .hbm => 7
  | .vmem => 0
  | .smem => 0
  | _ => 0

abbrev bufTy : (tb : Table) → Fin (tcTables nBuf tb) → BufTy
  | .hbm, ⟨0, _⟩ => ⟨S4x64x4000, .f32⟩
  | .hbm, ⟨1, _⟩ => ⟨S4x4000x6000, .f32⟩
  | .hbm, ⟨2, _⟩ => ⟨S4x6000, .f32⟩
  | .hbm, ⟨3, _⟩ => ⟨S4x1x6000, .f32⟩
  | .hbm, ⟨4, _⟩ => ⟨S4x4000x6000, .f32⟩
  | .hbm, ⟨5, _⟩ => ⟨S4x4000x6000, .f32⟩
  | .hbm, ⟨6, _⟩ => ⟨S4x64x6000, .f32⟩
  | _, _ => ⟨S4x64x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4x6000_S4x1x6000_0_2 : S4x6000.BroadcastsInDim S4x1x6000 (![0, 2] : Fin 2 → Fin S4x1x6000.rank)
  bcast_S4x1x6000_S4x4000x6000_0_1_2 : S4x1x6000.BroadcastsInDim S4x4000x6000 (![0, 1, 2] : Fin 3 → Fin S4x4000x6000.rank)
  dot_S4x64x4000_S4x4000x6000_S4x64x6000_2_1_1_2_0_0_wf : DotDims.WF S4x64x4000 S4x4000x6000 S4x64x6000 [2] [1] [1] [2] [0] [0]

variable [Facts₀]

def dot_S4x64x4000_S4x4000x6000_S4x64x6000_2_1_1_2_0_0 : DotDims S4x64x4000 S4x4000x6000 S4x64x6000 where
  lhsContracting := [2]
  rhsContracting := [1]
  lhsNonContracting := [1]
  rhsNonContracting := [2]
  lhsBatch := [0]
  rhsBatch := [0]
  wf := dot_S4x64x4000_S4x4000x6000_S4x64x6000_2_1_1_2_0_0_wf

class Facts : Prop extends Facts₀ where

variable [Facts]
-- ==== Proof.WordTile.lean ====
/-
  One grid step of the kernel as printed, as a Hoare triple, at any float instance.
  The step reads its three input tiles through the whole staging buffers, forms the tile product, scales it by the
  reciprocal counts and writes the whole output buffer once; nothing else is touched.
-/
import proofs.«122762_j20615843021401_2_alg».proof.Proof.Gen.Kernel.Frame
import proofs.«122762_j20615843021401_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The three offsets of every access of the body are zero. -/
theorem offsets_zero : (![0, 0, 0] : Fin 3 → Nat) = fun _ => 0 := funext fun a => by fin_cases a <;> rfl

set_option maxHeartbeats 1000000 in
/-- One grid step on whole staging buffers. The features tile `x0` (1×64×4000), the group tile `x1` (1×4000×768) and the
    reciprocal-count row `x2` (1×1×768) are read whole and left as they were; the output buffer, whatever it held, ends
    holding the step's one stored value: the 64×768 product of `x0` and `x1` scaled column by column by `x2`, columns
    at or past 6000 of the full axis set to zero (`k0_pay1`). -/
theorem sound_kernel (c : Dev nD) (E : Set ℕ) (i : grid0.Coords)
    (a2 : Memref sig .tc .vmem S1x64x4000 .f32) (h2 : a2.IsWhole) (a3 : Memref sig .tc .vmem S1x4000x768 .f32) (h3 : a3.IsWhole)
    (a4 : Memref sig .tc .vmem S1x1x768 .f32) (h4 : a4.IsWhole) (a5 : Memref sig .tc .vmem S1x64x768 .f32) (h5 : a5.IsWhole)
    (x0 : Vec F S1x64x4000 .f32) (x1 : Vec F S1x4000x768 .f32) (x2 : Vec F S1x1x768 .f32) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d)
        ∗ (iprop(owns (c : Thread nD τ) a2 fullShare x0 ∗ owns (c : Thread nD τ) a3 fullShare x1 ∗ owns (c : Thread nD τ) a4 fullShare x2
              ∗ owns (c : Thread nD τ) a5 fullShare (k0_pay1 i x0 x1 x2)) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero offsets_zero inb_S1x64x768_S1x64x768_0_0_0 y⟩),
    View.canon_unit_zero offsets_zero]
  simp only [View.readAt_eq_ld, View.ld_unit_zero (S := S1x64x4000) offsets_zero,
    View.ld_unit_zero (S := S1x4000x768) offsets_zero, View.ld_unit_zero (S := S1x1x768) offsets_zero]

end Cert.Kernel.Tile
end
-- ==== Proof.WordRun.lean ====
/-
  The launch of the kernel as printed: every weakly fair execution terminates without a fault and leaves the three
  argument arrays as they were.

  The grid is 4 × 8: step (b, s) works on batch b and on columns 768·s … 768·s + 767 of the 6000-column axis; the last
  column tile overhangs the axis by 144 columns, where the fetched buffers hold words nobody names. For this claim
  nothing needs to be said about what a step stores: the output window's buffer is handed to the step at any contents
  and taken back at any contents. The inputs' buffers are described on the columns inside the arrays, and each step
  leaves them as it found them.
-/
import proofs.«122762_j20615843021401_2_alg».proof.Proof.WordTile
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word put where a description needs one and nothing reads it: zero. -/
abbrev pad {S : Shape} : S.Idx → Elt F .f32 := fun _ => Scalar.ofBits .f32 0#32

/-- The group tile at step `t`: the array's columns inside the axis, zero past it. -/
def gtile (c : Dev nD) (t : Fin cfg0.N) : S1x4000x768.Idx → Elt F .f32 :=
  win0_1.fill (grid0.coords t) pad (iblk m c 1 t)
/-- The reciprocal-count row at step `t`, likewise. -/
def rtile (c : Dev nD) (t : Fin cfg0.N) : S1x1x768.Idx → Elt F .f32 :=
  win0_2.fill (grid0.coords t) pad (iblk m c 2 t)

/-- The proof data of the pipeline on core `c`: the arrays as the region finds them; after each step the features
    buffer at its tile, the group and count buffers at their tiles on the columns inside the arrays; the output
    window's entry is never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => gtile m c t
    | ⟨2, _⟩ => rtile m c t
    | ⟨3, _⟩ => pad
  Φ _ := Pipeline.ΦA spec0 c
  q _ := fullShare
  owed _ := 0

/-- The one window nothing is said about: the output's. -/
abbrev unread : Fin cfg0.W → Bool := ![false, false, false, true]

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = gtile m c t := by dsimp only [dats]
theorem after_2 (c : Dev nD) (t : Fin cfg0.N) : (dats m 0 c).after 2 t = rtile m c t := by dsimp only [dats]

/-- The features buffer holds the batch's tile at every step, fetched there or kept from the step before. -/
theorem before_0 (c : Dev nD) (t : Fin cfg0.N) (d) : (dats m 0 c).before 0 t d = iblk m c 0 t :=
  before0_0_of m (dats m 0 c) (A_eq m c 0) (after_0 m c) t d
/-- The group buffer is fetched at every step: the array's tile on the columns inside the axis, `d` past it. -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
/-- The count buffer likewise. -/
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-- The step at `t`: the inputs' buffers arrive at their tiles (filled out past the axis with anything) and leave as
    they came; the output's buffer arrives and leaves at contents nobody names. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ (∃ d, owns (c : Thread nD τ) (st0_1 t) fullShare
                (win0_1.fill (grid0.coords t) d (win0_1.cut (grid0.coords t) ((dats m 0 c).after 1 t))))
          ∗ (∃ d, owns (c : Thread nD τ) (st0_2 t) fullShare
                (win0_2.fill (grid0.coords t) d (win0_2.cut (grid0.coords t) ((dats m 0 c).after 2 t))))
          ∗ (∃ X, owns (c : Thread nD τ) (st0_3 t) fullShare X))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩, ⟨%d3, H3⟩⟩
  iapply (Tile.sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold gtile; rw [Window.cut_fill]; iexact H1
  isplitl [H2]
  · iexists d2; unfold rtile; rw [Window.cut_fill]; iexact H2
  · iexists _; iexact H3

/-- The library's per-step obligation, the output window unread. -/
theorem body_obligation (c : Dev nD) :
    BodyObligationLoose (dats (F := F) m 0 c) (defs₀ (F := F)) Variants.none () Set.univ unread := fun t => by
  rw [bigSep_W0, bigSep_W0]
  exact sound_body m c t

/-! ## The run and the frame -/

set_option backward.isDefEq.respectTransparency.types false in
/-- Every weakly fair execution of @main terminates without a fault; every input array of the pipeline may hold only
    its entry contents, and every other unscoped buffer ends as the region found it. -/
theorem run_main : θ_run defs (onTc (τ := τ) (main (F := F))) (s₀ m ρ)
    (RDat.FramePost cfg0 (fun c => (dats m 0 c).toRForget unread) (V m)) :=
  Pipeline.RDat.θ_run_frame cfgs (0 : Fin 1) launch0 defs₀ Variants.none (fun c => (dats m 0 c).toRForget unread) m ρ main
    (hbody := fun c => (body_obligation m c).toRForget)
    (hshare := fun c => ((dats m 0 c).toRForget unread).share_full fun _ => rfl)
    (howed := fun _ _ => rfl) (V := V m) (hmain := hmain m Variants.none) (hA := A_eq m) (hΦ := fun _ _ => rfl)

/-- The frame: the three argument arrays end as they were launched. The features and the group matrix are inputs of
    the pipeline, never written back; the counts are read only by the host operations before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0
    have h1 := (h c).1 1
    rw [RDat.ArrAt_in _ 0 rfl] at h0
    rw [RDat.ArrAt_in _ 1 rfl] at h1
    exact ⟨h0.trans ((A_eq m c 0).trans (V_main_arg0 m c)), h1.trans ((A_eq m c 1).trans (V_main_arg1 m c)),
      ((h c).2 main_arg2 (Pipeline.mem_restRefs_of main_arg2 (by decide) (by decide))).trans (V_main_arg2 m c)⟩)
    (run_main m ρ)

end Cert.Kernel.Run
end
-- ==== Proof.IdealTile.lean ====
/-
  One grid step of the idealized kernel as a Hoare triple, at any float instance.
  The step reads its three input tiles through the whole staging buffers, forms the tile product, scales it by the
  reciprocal counts and writes the whole output buffer once; nothing else is touched.
-/
import proofs.«122762_j20615843021401_2_alg».proof.Proof.Gen.KernelIdeal.Frame
import proofs.«122762_j20615843021401_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The three offsets of every access of the body are zero. -/
theorem offsets_zero : (![0, 0, 0] : Fin 3 → Nat) = fun _ => 0 := funext fun a => by fin_cases a <;> rfl

set_option maxHeartbeats 1000000 in
/-- One grid step on whole staging buffers. The features tile `x0` (1×64×4000), the group tile `x1` (1×4000×768) and the
    reciprocal-count row `x2` (1×1×768) are read whole and left as they were; the output buffer, whatever it held, ends
    holding the step's one stored value: the 64×768 product of `x0` and `x1` scaled column by column by `x2`, columns
    at or past 6000 of the full axis set to zero (`k0_pay1`). -/
theorem sound_kernel (c : Dev nD) (E : Set ℕ) (i : grid0.Coords)
    (a2 : Memref sig .tc .vmem S1x64x4000 .f32) (h2 : a2.IsWhole) (a3 : Memref sig .tc .vmem S1x4000x768 .f32) (h3 : a3.IsWhole)
    (a4 : Memref sig .tc .vmem S1x1x768 .f32) (h4 : a4.IsWhole) (a5 : Memref sig .tc .vmem S1x64x768 .f32) (h5 : a5.IsWhole)
    (x0 : Vec F S1x64x4000 .f32) (x1 : Vec F S1x4000x768 .f32) (x2 : Vec F S1x1x768 .f32) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d)
        ∗ (iprop(owns (c : Thread nD τ) a2 fullShare x0 ∗ owns (c : Thread nD τ) a3 fullShare x1 ∗ owns (c : Thread nD τ) a4 fullShare x2
              ∗ owns (c : Thread nD τ) a5 fullShare (k0_pay1 i x0 x1 x2)) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero offsets_zero inb_S1x64x768_S1x64x768_0_0_0 y⟩),
    View.canon_unit_zero offsets_zero]
  simp only [View.readAt_eq_ld, View.ld_unit_zero (S := S1x64x4000) offsets_zero,
    View.ld_unit_zero (S := S1x4000x768) offsets_zero, View.ld_unit_zero (S := S1x1x768) offsets_zero]

end Cert.KernelIdeal.Tile
end
-- ==== Proof.IdealRun.lean ====
/-
  The launch of the one pipeline: what each staging buffer holds around each grid step, and the whole run.

  The grid is 4 × 8: step (b, s) works on batch b and on columns 768·s … 768·s + 767 of the 6000-column axis. The last
  column tile (s = 7) overhangs the axis by 144 columns: the fetches of the group tile and of the reciprocal-count row
  fill only the first 624 columns of their buffers from the arrays and leave words nobody names in the rest, and the
  write-back of the output tile copies only its first 624 columns. So every statement about the group, count and
  output buffers is made on the columns inside the arrays only; the features tile is whole at every step.

  The output array is described by ONE function `Gout` of the argument arrays: the hypothesis `hG` says that what a
  step leaves in the output buffer agrees, on the columns inside the array, with that step's tile of `Gout`, whatever the
  unnamed words were. From it: the proof data, the per-step obligation, the run, and (the tiles cover the array) the
  output array after the run is `Gout`.
-/
import proofs.«122762_j20615843021401_2_alg».proof.Proof.IdealTile
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule in closed form -/

/-- Step `t` is (batch `t / 8`, column tile `t % 8`); every window but the features' is indexed by both, and the
    column tile is cut to 624 columns when it is the last. Decided over the 32 steps. -/
theorem tile_facts : ∀ t : Fin cfg0.N,
    (win0_0.index t 0 = t.val / 8 ∧ win0_0.index t 1 = 0 ∧ win0_0.index t 2 = 0)
    ∧ (win0_1.index t 0 = t.val / 8 ∧ win0_1.index t 1 = 0 ∧ win0_1.index t 2 = t.val % 8)
    ∧ (win0_2.index t 0 = t.val / 8 ∧ win0_2.index t 1 = 0 ∧ win0_2.index t 2 = t.val % 8)
    ∧ (win0_3.index t 0 = t.val / 8 ∧ win0_3.index t 1 = 0 ∧ win0_3.index t 2 = t.val % 8)
    ∧ (win0_1.xsize (grid0.coords t) 0 = 1 ∧ win0_1.xsize (grid0.coords t) 1 = 4000
        ∧ win0_1.xsize (grid0.coords t) 2 = if t.val % 8 = 7 then 624 else 768)
    ∧ (win0_2.xsize (grid0.coords t) 0 = 1 ∧ win0_2.xsize (grid0.coords t) 1 = 1
        ∧ win0_2.xsize (grid0.coords t) 2 = if t.val % 8 = 7 then 624 else 768)
    ∧ (win0_3.xsize (grid0.coords t) 0 = 1 ∧ win0_3.xsize (grid0.coords t) 1 = 64
        ∧ win0_3.xsize (grid0.coords t) 2 = if t.val % 8 = 7 then 624 else 768)
    ∧ ((grid0.coords t 1).val = t.val % 8) :=
  (by decide +kernel : ∀ t : Fin grid0.N, _)

/-! ## The proof data -/

/-- The word put where a description needs one and nothing reads it: zero. -/
abbrev pad {S : Shape} : S.Idx → Elt F .f32 := fun _ => Scalar.ofBits .f32 0#32

/-- The group tile at step `t`: the array's columns inside the axis, zero past it. -/
def gtile (c : Dev nD) (t : Fin cfg0.N) : S1x4000x768.Idx → Elt F .f32 :=
  win0_1.fill (grid0.coords t) pad (iblk m c 1 t)
/-- The reciprocal-count row at step `t`, likewise. -/
def rtile (c : Dev nD) (t : Fin cfg0.N) : S1x1x768.Idx → Elt F .f32 :=
  win0_2.fill (grid0.coords t) pad (iblk m c 2 t)

variable (Gout : (c : Dev nD) → Buf (Elt F) ((c : Thread nD τ).loc main_v3))

/-- The output tile at step `t`: `Gout`'s columns inside the axis, zero past it. -/
def otile (c : Dev nD) (t : Fin cfg0.N) : S1x64x768.Idx → Elt F .f32 :=
  win0_3.fill (grid0.coords t) pad ((win0_3.blk t).view.read (Elt F) (Gout c))

/-- The proof data of the pipeline on core `c`: the arrays as the region finds them; after each step the features
    buffer at its tile, the group, count and output buffers at their tiles on the columns inside the arrays. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => gtile m c t
    | ⟨2, _⟩ => rtile m c t
    | ⟨3, _⟩ => otile Gout c t
  Φ _ := Pipeline.ΦA spec0 c
  q _ := fullShare
  owed _ := 0

theorem A_eq (c : Dev nD) (w : Fin cfg0.W) : (dats m Gout 0 c).A w = V m c (Pipeline.arrRef spec0 w) := by
  dsimp only [dats]

theorem after_0 (c : Dev nD) (t : Fin cfg0.N) : (dats m Gout 0 c).after 0 t = iblk m c 0 t := by dsimp only [dats]
theorem after_1 (c : Dev nD) (t : Fin cfg0.N) : (dats m Gout 0 c).after 1 t = gtile m c t := by dsimp only [dats]
theorem after_2 (c : Dev nD) (t : Fin cfg0.N) : (dats m Gout 0 c).after 2 t = rtile m c t := by dsimp only [dats]
theorem after_3 (c : Dev nD) (t : Fin cfg0.N) : (dats m Gout 0 c).after 3 t = otile Gout c t := by dsimp only [dats]

/-- The features buffer holds the batch's tile at every step, fetched there or kept from the step before. -/
theorem before_0 (c : Dev nD) (t : Fin cfg0.N) (d) : (dats m Gout 0 c).before 0 t d = iblk m c 0 t :=
  before0_0_of m (dats m Gout 0 c) (A_eq m Gout c 0) (after_0 m Gout c) t d
/-- The group buffer is fetched at every step: the array's tile on the columns inside the axis, `d` past it. -/
theorem before_1 (c : Dev nD) (t : Fin cfg0.N) (d) :
    (dats m Gout 0 c).before 1 t d = win0_1.fill (grid0.coords t) d (iblk m c 1 t) := by
  unfold Dat.before; rw [if_pos (fetch0_1 t)]; unfold Dat.fetched Dat.blockOf iblk; rw [A_eq]
/-- The count buffer likewise. -/
theorem before_2 (c : Dev nD) (t : Fin cfg0.N) (d) :
    (dats m Gout 0 c).before 2 t d = win0_2.fill (grid0.coords t) d (iblk m c 2 t) := by
  unfold Dat.before; rw [if_pos (fetch0_2 t)]; unfold Dat.fetched Dat.blockOf iblk; rw [A_eq]
/-- The output buffer is written back after every step, so each step finds it at contents nobody names. -/
theorem before_3 (c : Dev nD) (t : Fin cfg0.N) (d) : (dats m Gout 0 c).before 3 t d = d := by
  refine (dats m Gout 0 c).before_out_reset 3 rfl t ?_ d
  by_cases h : t.val = 0
  · exact .inl h
  · exact .inr ⟨h, flush0_3 _⟩

/-! ## One step -/

variable (hG : ∀ (c : Dev nD) (t : Fin cfg0.N) (d1 : S1x4000x768.Idx → Elt F .f32) (d2 : S1x1x768.Idx → Elt F .f32),
    win0_3.cut (grid0.coords t) (k0_pay1 (grid0.coords t) (iblk m c 0 t)
        (win0_1.fill (grid0.coords t) d1 (iblk m c 1 t)) (win0_2.fill (grid0.coords t) d2 (iblk m c 2 t)))
      = (win0_3.blk t).view.read (Elt F) (Gout c))

include hG in
/-- The step at `t`: the inputs' buffers arrive at their tiles (filled out past the axis with anything) and leave as
    they came; the output's leaves at the step's stored value, which on the columns inside the array is `Gout`'s tile. -/
theorem sound_body (c : Dev nD) (t : Fin cfg0.N) :
    iprop((dats m Gout 0 c).Φ t.castSucc ∗ (dats m Gout 0 c).owesAt () t.castSucc
      ∗ (∃ d, owns (c : Thread nD τ) (st0_0 t) fullShare ((dats m Gout 0 c).before 0 t d))
      ∗ (∃ d, owns (c : Thread nD τ) (st0_1 t) fullShare ((dats m Gout 0 c).before 1 t d))
      ∗ (∃ d, owns (c : Thread nD τ) (st0_2 t) fullShare ((dats m Gout 0 c).before 2 t d))
      ∗ (∃ d, owns (c : Thread nD τ) (st0_3 t) fullShare ((dats m Gout 0 c).before 3 t d)))
    ⊢ wp frame (wpE (defs₀ (F := F)) Variants.none c none) Set.univ (bodyAt0 t) (fun _ =>
        iprop((dats m Gout 0 c).Φ t.succ ∗ (dats m Gout 0 c).owesAt () t.succ
          ∗ owns (c : Thread nD τ) (st0_0 t) fullShare ((dats m Gout 0 c).after 0 t)
          ∗ (∃ d, owns (c : Thread nD τ) (st0_1 t) fullShare
                (win0_1.fill (grid0.coords t) d (win0_1.cut (grid0.coords t) ((dats m Gout 0 c).after 1 t))))
          ∗ (∃ d, owns (c : Thread nD τ) (st0_2 t) fullShare
                (win0_2.fill (grid0.coords t) d (win0_2.cut (grid0.coords t) ((dats m Gout 0 c).after 2 t))))
          ∗ (∃ d, owns (c : Thread nD τ) (st0_3 t) fullShare
                (win0_3.fill (grid0.coords t) d (win0_3.cut (grid0.coords t) ((dats m Gout 0 c).after 3 t)))))) := by
  unfold bodyAt0
  simp only [before_0, before_1, before_2, before_3]
  rw [show (dats m Gout 0 c).Φ t.succ = (dats m Gout 0 c).Φ t.castSucc from rfl,
    show (dats m Gout 0 c).owesAt () t.succ = (dats m Gout 0 c).owesAt () t.castSucc from rfl,
    after_0, after_1, after_2, after_3]
  iintro ⟨HΦ, Ho, ⟨%d0, H0⟩, ⟨%d1, H1⟩, ⟨%d2, H2⟩, ⟨%d3, H3⟩⟩
  iapply (Tile.sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold gtile; rw [Window.cut_fill]; iexact H1
  isplitl [H2]
  · iexists d2; unfold rtile; rw [Window.cut_fill]; iexact H2
  · iexists _; unfold otile; rw [Window.cut_fill, ← hG c t d1 d2, Window.fill_cut]; iexact H3

include hG in
/-- The library's per-step obligation, in the form that speaks of the cut windows on their moved columns only. -/
theorem body_obligation (c : Dev nD) :
    BodyObligationLoose (dats (F := F) m Gout 0 c) (defs₀ (F := F)) Variants.none () Set.univ := fun t => by
  rw [bigSep_W0, bigSep_W0]
  exact sound_body m Gout hG c t

/-! ## The run -/

set_option backward.isDefEq.respectTransparency.types false in
include hG in
/-- Every weakly fair execution of @main terminates without a fault; every array of the pipeline ends at what the
    library computes from the proof data, every other unscoped buffer as the region found it. -/
theorem run_main : θ_run defs (onTc (τ := τ) (main (F := F))) (s₀ m ρ) (Pipeline.FramePost cfgs (dats m Gout) 0 (V m)) :=
  Pipeline.θ_run_frame cfgs (dats m Gout) (0 : Fin 1) launch0 defs₀ Variants.none m ρ main
    (hbody := fun c => body_obligation m Gout hG c) (hshare := fun c => (dats m Gout 0 c).share_full fun _ => rfl)
    (howed := fun _ _ => rfl) (V := V m) (hmain := hmain m Variants.none) (hA := A_eq m Gout) (hΦ := fun _ _ => rfl)

end Cert.KernelIdeal.Run
end
-- ==== Proof.IdealStored.lean ====
/-
  What one grid step stores, entry by entry, on the extended reals.

  At column tile `s` (the step's second coordinate), channel `f` and column `col` of the tile, provided the column
  768·s + col lies inside the 6000-column axis, the stored entry is
      (∑ₑ x0(0, f, e) · x1(0, e, col)) · x2(0, 0, col):
  the rounding to bf16 before the product is the identity on the extended reals, the matrix product into a zero
  accumulator is the plain sum, the count row is broadcast down the 64 channels, and the comparison of the column with
  6000 selects the product, not the zero.
-/
import proofs.«122762_j20615843021401_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384

noncomputable section

namespace Cert.KernelIdeal.Stored

open Cert.KernelIdeal Cert.KernelIdeal.Gen
open Idealize.ShloMosaic Idealize.ShloMosaic.ValueIdx

/-- Inside the axis the comparison `768·s + col < 6000` on 32-bit words answers true: the sum is below 6144, far from
    wrapping, and a word below 2³¹ reads the same signed and unsigned. -/
theorem column_in_axis (s col : Nat) (hs : s < 8) (hc : col < 768) (h : s * 768 + col < 6000) :
    IntOp.cmpi .slt (IntOp.addi (Scalar.muli (BitVec.ofNat 32 s) 768#32) (BitVec.ofNat 32 col)) 6000#32 = 1#1 := by
  rw [IntOp.cmpi_slt]
  have hx : (IntOp.addi (Scalar.muli (BitVec.ofNat 32 s) 768#32) (BitVec.ofNat 32 col)).toNat = s * 768 + col := by
    simp only [IntOp.addi, Scalar.muli, IntOp.muli, BitVec.toNat_add, BitVec.toNat_mul, BitVec.toNat_ofNat]
    omega
  rw [BitVec.toInt_eq_toNat_cond, BitVec.toInt_eq_toNat_cond, hx]
  simp only [BitVec.toNat_ofNat]
  omega

/-- The tile product contracts the features' second axis with the group tile's first; its operand indices at the
    output entry `j` and contraction index `q`, axis by axis. -/
theorem lhs_axis0 (j : S64x768.Idx) (q : dot_S64x4000_S4000x768_S64x768_1_0_0_1_n_n.contr.Idx) :
    (dot_S64x4000_S4000x768_S64x768_1_0_0_1_n_n.lhsIdx j q 0).val = (j 0).val := by
  unfold DotDims.lhsIdx
  rw [dif_neg (show ¬(0 : Fin S64x4000.rank) ∈ dot_S64x4000_S4000x768_S64x768_1_0_0_1_n_n.lhsBatch by decide),
    dif_pos (show (0 : Fin S64x4000.rank) ∈ dot_S64x4000_S4000x768_S64x768_1_0_0_1_n_n.lhsNonContracting by decide)]
  rfl
theorem lhs_axis1 (j : S64x768.Idx) (q : dot_S64x4000_S4000x768_S64x768_1_0_0_1_n_n.contr.Idx) :
    (dot_S64x4000_S4000x768_S64x768_1_0_0_1_n_n.lhsIdx j q 1).val = (q ⟨0, by decide⟩).val :=
  dot_S64x4000_S4000x768_S64x768_1_0_0_1_n_n.lhsIdx_val_of_single rfl j q
theorem rhs_axis0 (j : S64x768.Idx) (q : dot_S64x4000_S4000x768_S64x768_1_0_0_1_n_n.contr.Idx) :
    (dot_S64x4000_S4000x768_S64x768_1_0_0_1_n_n.rhsIdx j q 0).val = (q ⟨0, by decide⟩).val :=
  dot_S64x4000_S4000x768_S64x768_1_0_0_1_n_n.rhsIdx_val_of_single rfl j q
theorem rhs_axis1 (j : S64x768.Idx) (q : dot_S64x4000_S4000x768_S64x768_1_0_0_1_n_n.contr.Idx) :
    (dot_S64x4000_S4000x768_S64x768_1_0_0_1_n_n.rhsIdx j q 1).val = (j 1).val := by
  unfold DotDims.rhsIdx
  rw [dif_neg (show ¬(1 : Fin S4000x768.rank) ∈ dot_S64x4000_S4000x768_S64x768_1_0_0_1_n_n.rhsBatch by decide),
    dif_pos (show (1 : Fin S4000x768.rank) ∈ dot_S64x4000_S4000x768_S64x768_1_0_0_1_n_n.rhsNonContracting by decide)]
  rfl

/-- The contraction index is one axis of 4000 edges. -/
theorem lhs_at (j : S64x768.Idx) (k : Fin 4000) :
    dot_S64x4000_S4000x768_S64x768_1_0_0_1_n_n.lhsIdx j
        ((contrEquiv1 dot_S64x4000_S4000x768_S64x768_1_0_0_1_n_n 4000 rfl rfl).symm k)
      = ix2 (⟨(j 0).val, (j 0).isLt⟩ : Fin 64) k := by
  have hk := contrEquiv1_symm_val dot_S64x4000_S4000x768_S64x768_1_0_0_1_n_n 4000 rfl rfl k
  exact funext fun a => Fin.ext (by
    match a with
    | ⟨0, _⟩ => exact lhs_axis0 _ _
    | ⟨1, _⟩ => exact (lhs_axis1 _ _).trans hk)

theorem rhs_at (j : S64x768.Idx) (k : Fin 4000) :
    dot_S64x4000_S4000x768_S64x768_1_0_0_1_n_n.rhsIdx j
        ((contrEquiv1 dot_S64x4000_S4000x768_S64x768_1_0_0_1_n_n 4000 rfl rfl).symm k)
      = ix2 k (⟨(j 1).val, (j 1).isLt⟩ : Fin 768) := by
  have hk := contrEquiv1_symm_val dot_S64x4000_S4000x768_S64x768_1_0_0_1_n_n 4000 rfl rfl k
  exact funext fun a => Fin.ext (by
    match a with
    | ⟨0, _⟩ => exact (rhs_axis0 _ _).trans hk
    | ⟨1, _⟩ => exact rhs_axis1 _ _)

/-- The tile product into the zero accumulator, at (f, col): the sum over the edges. -/
theorem product_apply (l : FVec Ideal S64x4000 .bf16) (r : FVec Ideal S4000x768 .bf16) (f : Fin 64) (col : Fin 768) :
    matmul dot_S64x4000_S4000x768_S64x768_1_0_0_1_n_n none l r (constant (F := Ideal) S64x768 .f32 0x00000000#32) (ix2 f col)
      = ∑ e : Fin 4000, l (ix2 f e) * r (ix2 e col) := by
  simp only [matmul]
  rw [Ideal.matmul_constant_zero_apply,
    ← Equiv.sum_comp (contrEquiv1 dot_S64x4000_S4000x768_S64x768_1_0_0_1_n_n 4000 rfl rfl).symm]
  refine Finset.sum_congr rfl fun k _ => ?_
  rw [lhs_at, rhs_at]

/-- The stored entry at a column inside the axis. -/
theorem stored_apply (i : grid0.Coords) (x0 : Vec Ideal S1x64x4000 .f32) (x1 : Vec Ideal S1x4000x768 .f32)
    (x2 : Vec Ideal S1x1x768 .f32) (f : Fin 64) (col : Fin 768) (hcol : (i 1).val * 768 + col.val < 6000) :
    k0_pay1 (F := Ideal) i x0 x1 x2 (ix3 (0 : Fin 1) f col)
      = (∑ e : Fin 4000, x0 (ix3 (0 : Fin 1) f e) * x1 (ix3 (0 : Fin 1) e col)) * x2 (ix3 (0 : Fin 1) (0 : Fin 1) col) := by
  unfold k0_pay1
  dsimp only
  rw [shapeCast_ab_1ab_apply, select_apply]
  have hmask : cmpi .slt (addi (broadcast S64x768 (Scalar.muli (BitVec.ofNat 32 (i 1).val) 768#32))
      (iota .tc S64x768 32 [1] Facts₀.iota_S64x768_d1_w32)) (broadcast S64x768 6000#32) (ix2 f col) = 1#1 := by
    show IntOp.cmpi .slt (IntOp.addi (Scalar.muli (BitVec.ofNat 32 (i 1).val) 768#32)
      (iota .tc S64x768 32 [1] Facts₀.iota_S64x768_d1_w32 (ix2 f col))) 6000#32 = 1#1
    rw [iota_single_apply]
    exact column_in_axis (i 1).val col.val (i 1).isLt col.isLt hcol
  rw [hmask, select_one, mulf_apply, product_apply, broadcastTo_1b_ab_apply, shapeCast_1ab_ab_apply]
  congr 1
  refine Finset.sum_congr rfl fun e _ => ?_
  rw [truncf_apply, truncf_apply, shapeCast_1ab_ab_apply, shapeCast_1ab_ab_apply]

end Cert.KernelIdeal.Stored

end
-- ==== Proof.UnrollSpec.lean ====
/-
  The two formulas, and the law that joins them.

  For features `φ` [4, 64, 4000], a group matrix `γ` [4, 4000, 6000] and occurrence counts `ω` [4, 6000]:

    scaled product      P(b, f, t) = (∑ₑ φ(b, f, e) · γ(b, e, t)) · (1 / ω(b, t))
    product of quotient Q(b, f, t) = ∑ₑ φ(b, f, e) · (γ(b, e, t) / ω(b, t))

  on the extended reals, with the quotient's conventions at a zero divisor (x / 0 is ±∞ by the sign of x, and 0 / 0 is
  −∞). They are not the same function everywhere: at ω = 0, γ = 0 and one nonzero feature, P = 0 · ∞ = 0 while
  Q = φ · (−∞). They agree when every entry is a real number and no count is zero: then x / ω = x · ω⁻¹ in ℝ, and the
  factor ω⁻¹, which does not depend on e, moves out of the finite sum by distributivity — the step that needs finiteness.
-/
import Idealize.ShloMosaic.PureOps.Ideal
import Idealize.ShloMosaic.Lib.ValueIdx
import Idealize.ShloMosaic.Lib.IdealHost

noncomputable section

namespace Unroll

open Idealize.ShloMosaic Idealize.ShloMosaic.ValueIdx

abbrev SFeat : Shape := ⟨3, ![4, 64, 4000]⟩
abbrev SGroup : Shape := ⟨3, ![4, 4000, 6000]⟩
abbrev SOcc : Shape := ⟨2, ![4, 6000]⟩
abbrev SOut : Shape := ⟨3, ![4, 64, 6000]⟩

/-- The feature entry (batch, channel of `i`; edge `e`). -/
abbrev featAt (i : SOut.Idx) (e : Fin 4000) : SFeat.Idx :=
  ix3 (⟨(i 0).val, (i 0).isLt⟩ : Fin 4) (⟨(i 1).val, (i 1).isLt⟩ : Fin 64) e
/-- The group entry (batch of `i`; edge `e`; target column of `i`). -/
abbrev groupAt (i : SOut.Idx) (e : Fin 4000) : SGroup.Idx :=
  ix3 (⟨(i 0).val, (i 0).isLt⟩ : Fin 4) e (⟨(i 2).val, (i 2).isLt⟩ : Fin 6000)
/-- The count entry (batch and target column of `i`). -/
abbrev occAt (i : SOut.Idx) : SOcc.Idx :=
  ix2 (⟨(i 0).val, (i 0).isLt⟩ : Fin 4) (⟨(i 2).val, (i 2).isLt⟩ : Fin 6000)

/-- The scaled product: the sum over edges, then one multiplication by the reciprocal count. -/
def scaledProduct (φ : SFeat.Idx → EReal) (γ : SGroup.Idx → EReal) (ω : SOcc.Idx → EReal) : SOut.Idx → EReal :=
  fun i => (∑ e : Fin 4000, φ (featAt i e) * γ (groupAt i e)) * Ideal.div 1 (ω (occAt i))

/-- The product with the quotient: every group entry divided by its column's count, then the sum over edges. -/
def productOfQuotient (φ : SFeat.Idx → EReal) (γ : SGroup.Idx → EReal) (ω : SOcc.Idx → EReal) : SOut.Idx → EReal :=
  fun i => ∑ e : Fin 4000, φ (featAt i e) * Ideal.div (γ (groupAt i e)) (ω (occAt i))

/-- A finite sum of reals, coerced, is the sum of the coercions. -/
theorem coe_sum {ι : Type*} (s : Finset ι) (f : ι → ℝ) : ((∑ e ∈ s, f e : ℝ) : EReal) = ∑ e ∈ s, (f e : EReal) := by
  classical
  induction s using Finset.induction_on with
  | empty => simp
  | insert a s ha ih => rw [Finset.sum_insert ha, Finset.sum_insert ha, EReal.coe_add, ih]

/-- The law over any finite index type: for reals `f e`, `g e` and a nonzero real `o`,
    `(∑ f·g) · (1/o) = ∑ f · (g/o)` on the extended reals. -/
theorem sum_mul_recip {ι : Type*} [Fintype ι] (f g : ι → ℝ) {o : ℝ} (ho : o ≠ 0) :
    (∑ e, (f e : EReal) * (g e : EReal)) * Ideal.div 1 (o : EReal)
      = ∑ e, (f e : EReal) * Ideal.div (g e : EReal) (o : EReal) := by
  rw [Ideal.div_coe ho, one_mul]
  simp only [Ideal.div_coe ho, ← EReal.coe_mul, ← coe_sum]
  rw [Finset.sum_mul]
  exact congrArg _ (Finset.sum_congr rfl fun e _ => by ring)

/-- On arrays of real numbers with no zero count the two formulas are one function. -/
theorem productOfQuotient_eq_scaledProduct (φ : SFeat.Idx → EReal) (γ : SGroup.Idx → EReal) (ω : SOcc.Idx → EReal)
    (hφ : ∀ j, ∃ r : ℝ, φ j = r) (hγ : ∀ j, ∃ r : ℝ, γ j = r) (hω : ∀ j, ∃ r : ℝ, ω j = r ∧ r ≠ 0) :
    productOfQuotient φ γ ω = scaledProduct φ γ ω := by
  choose f hf using hφ
  choose g hg using hγ
  choose o ho using hω
  funext i
  unfold productOfQuotient scaledProduct
  simp only [hf, hg, (ho _).1]
  exact (sum_mul_recip (fun e => f (featAt i e)) (fun e => g (groupAt i e)) (ho (occAt i)).2).symm

end Unroll

end
-- ==== Proof.IdealWhole.lean ====
/-
  The idealized kernel's result array as one function of its arguments.

  Step t = 8·b + s of the grid reads batch b of the features, columns 768·s … of batch b of the group matrix and of the
  reciprocal counts, and writes columns 768·s … of batch b of the result. The reciprocal counts are computed on the
  host before the region: the array the third window stages holds 1 / ω(b, t) at (b, 0, t). Read at global indices,
  the entry a step stores at a column inside the 6000-column axis is therefore the scaled product
      (∑ₑ φ(b, f, e) · γ(b, e, T)) · (1 / ω(b, T)),      T = 768·s + col,
  whatever words the fetches left past the axis' end, because column T of the product reads column T of the group tile
  and of the count row only. The 32 tiles, the last of each batch cut to 624 columns, cover the result array.
-/
import proofs.«122762_j20615843021401_2_alg».proof.Proof.IdealRun
import proofs.«122762_j20615843021401_2_alg».proof.Proof.IdealStored
import proofs.«122762_j20615843021401_2_alg».proof.Proof.UnrollSpec
import Idealize.ShloMosaic.Lib.StableHlo.Run
import Idealize.ShloMosaic.Lib.IdealHost

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx Idealize.ShloMosaic.StableHlo
open Cert.KernelIdeal.Run

variable (m : (ℓ : Loc nD τ sig) → Buf (Elt Ideal) ℓ) (ρ : Dev nD → PrngReg)

/-- The result array: the scaled product of the three argument arrays as launched. -/
def Gout (c : Dev nD) : Buf (Elt Ideal) ((c : Thread nD τ).loc main_v3) :=
  Unroll.scaledProduct (m ((c : Thread nD τ).loc main_arg0)) (m ((c : Thread nD τ).loc main_arg1))
    (m ((c : Thread nD τ).loc main_arg2))

/-! ## The step's coordinates -/

theorem step_lt (t : Fin cfg0.N) : t.val < 32 := Nat.lt_of_lt_of_eq t.isLt N_0

/-- The batch of step `t`. -/
def batchOf (t : Fin cfg0.N) : Fin 4 := ⟨t.val / 8, by have := step_lt t; omega⟩
/-- The global column of column `col` of step `t`'s tile, when inside the axis. -/
def columnOf (t : Fin cfg0.N) (col : Fin 768) (h : t.val % 8 * 768 + col.val < 6000) : Fin 6000 := ⟨t.val % 8 * 768 + col.val, h⟩

/-- A column inside the axis is one the cut transfers move. -/
theorem moved_of_inside (t : Fin cfg0.N) (col : Fin 768) (h : t.val % 8 * 768 + col.val < 6000) :
    col.val < (if t.val % 8 = 7 then 624 else 768) := by
  split
  · omega
  · exact col.isLt

/-! ## The reciprocal counts -/

/-- What the host operations before the region leave in the array the third window stages. -/
theorem recip_eq (c : Dev nD) :
    (V m c main_v2 : S4x1x6000.Idx → EReal)
      = broadcastInDim S4x1x6000 ![0, 2] bcast_S4x6000_S4x1x6000_0_2
          (Host.divf (broadcastInDim S4x6000 ![] bcast_S_S4x6000 (constant (F := Ideal) S_ .f32 0x3F800000#32))
            (m ((c : Thread nD τ).loc main_arg2))) := by
  dsimp only [V, hostOps0]; after_results

/-- At (b, 0, T) it holds the reciprocal of the count at (b, T). -/
theorem recip_apply (c : Dev nD) (b : Fin 4) (T : Fin 6000) :
    V m c main_v2 (ix3 b (0 : Fin 1) T) = Ideal.div 1 (m ((c : Thread nD τ).loc main_arg2) (ix2 b T)) := by
  rw [recip_eq]
  rw [broadcastInDim_apply _ bcast_S4x6000_S4x1x6000_0_2 _ (ix3 b (0 : Fin 1) T) (ix2 b T) (fun a => match a with
    | ⟨0, _⟩ => by show b.val = if (4 : Nat) = 1 then 0 else b.val; rw [if_neg (by decide)]
    | ⟨1, _⟩ => by show T.val = if (6000 : Nat) = 1 then 0 else T.val; rw [if_neg (by decide)])]
  show Ideal.div (broadcastInDim S4x6000 ![] bcast_S_S4x6000 (constant (F := Ideal) S_ .f32 0x3F800000#32) (ix2 b T)) _ = _
  rw [broadcastInDim_apply _ bcast_S_S4x6000 _ (ix2 b T) ix0 (fun a => a.elim0)]
  show Ideal.div (Ideal.ofBits .f32 0x3F800000#32) _ = _
  rw [Ideal.ofBits_one_f32]

/-! ## The tiles at global indices -/

/-- The features tile of step `t` is batch `t / 8` of the features. -/
theorem feat_tile_apply (c : Dev nD) (t : Fin cfg0.N) (f : Fin 64) (e : Fin 4000) :
    iblk m c 0 t (ix3 (0 : Fin 1) f e) = m ((c : Thread nD τ).loc main_arg0) (ix3 (batchOf t) f e) := by
  rw [← V_main_arg0 m c]
  show V m c main_arg0 ((win0_0.blk t).view.emb (ix3 (0 : Fin 1) f e)) = V m c main_arg0 _
  refine congrArg _ (funext fun a => Fin.ext ?_)
  have ht := (tile_facts t).1
  match a with
  | ⟨0, _⟩ => show win0_0.index t 0 * 1 + 1 * 0 = t.val / 8; rw [ht.1]; omega
  | ⟨1, _⟩ => show win0_0.index t 1 * 64 + 1 * f.val = f.val; rw [ht.2.1]; omega
  | ⟨2, _⟩ => show win0_0.index t 2 * 4000 + 1 * e.val = e.val; rw [ht.2.2]; omega

/-- The group buffer of step `t`, at a column inside the axis, is the group matrix at the global column, whatever the
    buffer held past the axis. -/
theorem group_tile_apply (c : Dev nD) (t : Fin cfg0.N) (d1 : S1x4000x768.Idx → Elt Ideal .f32) (e : Fin 4000) (col : Fin 768)
    (h : t.val % 8 * 768 + col.val < 6000) :
    win0_1.fill (grid0.coords t) d1 (iblk m c 1 t) (ix3 (0 : Fin 1) e col)
      = m ((c : Thread nD τ).loc main_arg1) (ix3 (batchOf t) e (columnOf t col h)) := by
  have hf := (tile_facts t).2.2.2.2.1
  have hm : win0_1.moved (grid0.coords t) (ix3 (0 : Fin 1) e col) = true :=
    (win0_1.moved_iff _ _).mpr fun a => by
      match a with
      | ⟨0, _⟩ => show 0 < win0_1.xsize (grid0.coords t) 0; rw [hf.1]; exact Nat.one_pos
      | ⟨1, _⟩ => show e.val < win0_1.xsize (grid0.coords t) 1; rw [hf.2.1]; exact e.isLt
      | ⟨2, _⟩ => show col.val < win0_1.xsize (grid0.coords t) 2; rw [hf.2.2]; exact moved_of_inside t col h
  unfold Window.fill
  rw [dif_pos hm, ← V_main_arg1 m c]
  show V m c main_arg1 ((win0_1.blk t).view.emb _) = V m c main_arg1 _
  refine congrArg _ (funext fun a => Fin.ext ?_)
  have hi := (tile_facts t).2.1
  match a with
  | ⟨0, _⟩ => show win0_1.index t 0 * 1 + 1 * 0 = t.val / 8; rw [hi.1]; omega
  | ⟨1, _⟩ => show win0_1.index t 1 * 4000 + 1 * e.val = e.val; rw [hi.2.1]; omega
  | ⟨2, _⟩ => show win0_1.index t 2 * 768 + 1 * col.val = t.val % 8 * 768 + col.val; rw [hi.2.2]; omega

/-- The count buffer of step `t`, at a column inside the axis, is the reciprocal count at the global column. -/
theorem recip_tile_apply (c : Dev nD) (t : Fin cfg0.N) (d2 : S1x1x768.Idx → Elt Ideal .f32) (col : Fin 768)
    (h : t.val % 8 * 768 + col.val < 6000) :
    win0_2.fill (grid0.coords t) d2 (iblk m c 2 t) (ix3 (0 : Fin 1) (0 : Fin 1) col)
      = Ideal.div 1 (m ((c : Thread nD τ).loc main_arg2) (ix2 (batchOf t) (columnOf t col h))) := by
  have hf := (tile_facts t).2.2.2.2.2.1
  have hm : win0_2.moved (grid0.coords t) (ix3 (0 : Fin 1) (0 : Fin 1) col) = true :=
    (win0_2.moved_iff _ _).mpr fun a => by
      match a with
      | ⟨0, _⟩ => show 0 < win0_2.xsize (grid0.coords t) 0; rw [hf.1]; exact Nat.one_pos
      | ⟨1, _⟩ => show 0 < win0_2.xsize (grid0.coords t) 1; rw [hf.2.1]; exact Nat.one_pos
      | ⟨2, _⟩ => show col.val < win0_2.xsize (grid0.coords t) 2; rw [hf.2.2]; exact moved_of_inside t col h
  unfold Window.fill
  rw [dif_pos hm, ← recip_apply m c (batchOf t) (columnOf t col h)]
  show V m c main_v2 ((win0_2.blk t).view.emb _) = V m c main_v2 _
  refine congrArg _ (funext fun a => Fin.ext ?_)
  have hi := (tile_facts t).2.2.1
  match a with
  | ⟨0, _⟩ => show win0_2.index t 0 * 1 + 1 * 0 = t.val / 8; rw [hi.1]; omega
  | ⟨1, _⟩ => show win0_2.index t 1 * 1 + 1 * 0 = 0; rw [hi.2.1]
  | ⟨2, _⟩ => show win0_2.index t 2 * 768 + 1 * col.val = t.val % 8 * 768 + col.val; rw [hi.2.2]; omega

/-! ## One step's stored tile is the result's tile -/

/-- On the columns inside the array, what step `t` leaves in the output buffer is the tile of `Gout` its write-back
    addresses, whatever the group and count buffers held past the axis. -/
theorem tile_eq (c : Dev nD) (t : Fin cfg0.N) (d1 : S1x4000x768.Idx → Elt Ideal .f32) (d2 : S1x1x768.Idx → Elt Ideal .f32) :
    win0_3.cut (grid0.coords t) (k0_pay1 (grid0.coords t) (iblk m c 0 t)
        (win0_1.fill (grid0.coords t) d1 (iblk m c 1 t)) (win0_2.fill (grid0.coords t) d2 (iblk m c 2 t)))
      = (win0_3.blk t).view.read (Elt Ideal) (Gout m c) := by
  funext j
  have hx := (tile_facts t).2.2.2.2.2.2.1
  have hi := (tile_facts t).2.2.2.1
  have hc := (tile_facts t).2.2.2.2.2.2.2
  have j0 : (j 0).val = 0 := by
    have : (j 0).val < win0_3.xsize (grid0.coords t) 0 := (j 0).isLt
    rw [hx.1] at this; omega
  have j1 : (j 1).val < 64 := by
    have : (j 1).val < win0_3.xsize (grid0.coords t) 1 := (j 1).isLt
    rw [hx.2.1] at this; exact this
  have j2 : (j 2).val < (if t.val % 8 = 7 then 624 else 768) := by
    have : (j 2).val < win0_3.xsize (grid0.coords t) 2 := (j 2).isLt
    rw [hx.2.2] at this; exact this
  have j2' : (j 2).val < 768 := by split at j2 <;> omega
  have hin : t.val % 8 * 768 + (j 2).val < 6000 := by
    have := Nat.mod_lt t.val (show 0 < 8 by decide)
    split at j2 <;> omega
  have e1 : win0_3.xinj (grid0.coords t) j = ix3 (0 : Fin 1) (⟨(j 1).val, j1⟩ : Fin 64) (⟨(j 2).val, j2'⟩ : Fin 768) :=
    funext fun a => Fin.ext (by
      match a with
      | ⟨0, _⟩ => exact j0
      | ⟨1, _⟩ => rfl
      | ⟨2, _⟩ => rfl)
  have e2 : (win0_3.blk t).view.emb j
      = ix3 (batchOf t) (⟨(j 1).val, j1⟩ : Fin 64) (columnOf t (⟨(j 2).val, j2'⟩ : Fin 768) hin) :=
    funext fun a => Fin.ext (by
      match a with
      | ⟨0, _⟩ => show win0_3.index t 0 * 1 + 1 * (j 0).val = t.val / 8; rw [hi.1, j0]; omega
      | ⟨1, _⟩ => show win0_3.index t 1 * 64 + 1 * (j 1).val = (j 1).val; rw [hi.2.1]; omega
      | ⟨2, _⟩ => show win0_3.index t 2 * 768 + 1 * (j 2).val = t.val % 8 * 768 + (j 2).val; rw [hi.2.2]; omega)
  show k0_pay1 (F := Ideal) (grid0.coords t) (iblk m c 0 t) (win0_1.fill (grid0.coords t) d1 (iblk m c 1 t))
      (win0_2.fill (grid0.coords t) d2 (iblk m c 2 t)) (win0_3.xinj (grid0.coords t) j)
    = Gout m c ((win0_3.blk t).view.emb j)
  rw [e1, e2, Stored.stored_apply _ _ _ _ _ _ (by rw [hc]; exact hin), recip_tile_apply m c t d2 _ hin]
  simp only [feat_tile_apply, group_tile_apply m c t d1 _ (⟨(j 2).val, j2'⟩ : Fin 768) hin]
  unfold Gout Unroll.scaledProduct
  rfl

/-! ## The tiles cover the result -/

/-- Every entry (b, f, T) of the result lies in the tile of step 8·b + T / 768. -/
theorem cover (i : S4x64x6000.Idx) : ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 6000 := (i 2).isLt
  have hN : (i 0).val * 8 + (i 2).val / 768 < cfg0.N := by rw [show cfg0.N = 32 from N_0]; omega
  refine ⟨⟨(i 0).val * 8 + (i 2).val / 768, hN⟩, flush0_3 _, ?_⟩
  set t : Fin cfg0.N := ⟨(i 0).val * 8 + (i 2).val / 768, hN⟩ with ht
  have tv : t.val = (i 0).val * 8 + (i 2).val / 768 := rfl
  have hx := (tile_facts t).2.2.2.2.2.2.1
  have hi := (tile_facts t).2.2.2.1
  show i ∈ ((View.whole main_v3).slice (win0_3.rect t)).set
  rw [View.set_slice_whole, Rect.mem_set_unit]
  intro a
  match a with
  | ⟨0, _⟩ =>
    show win0_3.index t 0 * 1 ≤ (i 0).val ∧ (i 0).val < win0_3.index t 0 * 1 + win0_3.xsize (grid0.coords t) 0
    rw [hi.1, hx.1, tv]; omega
  | ⟨1, _⟩ =>
    show win0_3.index t 1 * 64 ≤ (i 1).val ∧ (i 1).val < win0_3.index t 1 * 64 + win0_3.xsize (grid0.coords t) 1
    rw [hi.2.1, hx.2.1]; omega
  | ⟨2, _⟩ =>
    show win0_3.index t 2 * 768 ≤ (i 2).val ∧ (i 2).val < win0_3.index t 2 * 768 + win0_3.xsize (grid0.coords t) 2
    rw [hi.2.2, hx.2.2, tv]
    split <;> omega

/-! ## The run, with the result named -/

/-- After the run the result array is the scaled product of the arguments. -/
theorem final (c : Dev nD) : (dats m (Gout m) 0 c).arrAt 3 cfg0.N = Gout m c :=
  (dats m (Gout m) 0 c).arrAt_eq_of_cover 3 (Gout m c)
    (fun t _ => by
      show win0_3.cut (grid0.coords t) ((dats m (Gout m) 0 c).after 3 t) = _
      rw [after_3]; unfold otile; rw [Window.cut_fill])
    (cover)

/-- Every weakly fair execution of the idealized kernel terminates without a fault, the result array holding the
    scaled product of the arguments, the arguments as they were. -/
theorem run : θ_run defs (onTc (τ := τ) (main (F := Ideal))) ⟨m, fun _ => 0, ρ⟩ (fun r => ∀ c : Dev nD,
      r.2.mem ((c.tc : Thread nD τ).loc main_v3) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).1 3).trans (final m c),
       ((h c).1 0).trans (((dats m (Gout m) 0 c).arrAt_in 0 rfl _).trans ((A_eq m (Gout m) c 0).trans (V_main_arg0 m c))),
       ((h c).1 1).trans (((dats m (Gout m) 0 c).arrAt_in 1 rfl _).trans ((A_eq m (Gout m) c 1).trans (V_main_arg1 m c))),
       ((h c).2 main_arg2 (Pipeline.mem_restRefs_of main_arg2 (by decide) (by decide))).trans (V_main_arg2 m c)⟩)
    (run_main m ρ (Gout m) (tile_eq m))

end Cert.KernelIdeal.Whole

end
-- ==== Proof.RefTerm.lean ====
/-
  The reference program's result, index by index: at (b, f, t) the sum over the 4000 edges of the feature entry times
  the quotient of the group entry by the count of column t of batch b — the product with the quotient. The count is
  first laid out as [4, 1, 6000] and then along the edges, so the divisor at (b, e, t) is the count at (b, t).
-/
import proofs.«122762_j20615843021401_2_alg».proof.Proof.Gen.ReferenceIdeal.Read
import proofs.«122762_j20615843021401_2_alg».proof.Proof.UnrollSpec

noncomputable section

namespace Cert.ReferenceIdeal.RefTerm

open Cert.ReferenceIdeal Cert.ReferenceIdeal.Gen Cert.ReferenceIdeal.Read Idealize.ShloMosaic Idealize.ShloMosaic.ValueIdx

/-- The reference's composed term is the product with the quotient. -/
theorem reference_eq (x0 : (⟨S4x64x4000, .f32⟩ : BufTy).Contents (Elt Ideal)) (x1 : (⟨S4x4000x6000, .f32⟩ : BufTy).Contents (Elt Ideal))
    (x2 : (⟨S4x6000, .f32⟩ : BufTy).Contents (Elt Ideal)) :
    val_main_v3 (F := Ideal) x0 x1 x2 = Unroll.productOfQuotient x0 x1 x2 := by
  funext i
  rw [val_main_v3_apply]
  unfold Unroll.productOfQuotient
  refine Finset.sum_congr rfl fun k _ => ?_
  rw [val_main_v2_apply, val_main_v1_apply, val_main_v0_apply]
  have e0 : lidx_main_v3 i k = Unroll.featAt i k := funext fun a => Fin.ext (by
    match a with
    | ⟨0, _⟩ => rfl
    | ⟨1, _⟩ => rfl
    | ⟨2, _⟩ => rfl)
  have e1 : ridx_main_v3 i k = Unroll.groupAt i k := funext fun a => Fin.ext (by
    match a with
    | ⟨0, _⟩ => rfl
    | ⟨1, _⟩ => rfl
    | ⟨2, _⟩ => rfl)
  have e2 : idx_main_v0 (idx_main_v1 (ridx_main_v3 i k)) = Unroll.occAt i := funext fun a => Fin.ext (by
    match a with
    | ⟨0, _⟩ => rfl
    | ⟨1, _⟩ => rfl)
  rw [e2, e1, e0]
  rfl

end Cert.ReferenceIdeal.RefTerm

end
-- ==== Proof.PreDecode.lean ====
/-
  What the precondition says of the three argument arrays, on the extended reals: every entry of the features, of the
  group matrix and of the counts is a real number (|x| < +∞ excludes both infinities), and no count is zero.
  The predicate is the conjunction of four all-reductions; each is read at every index.
-/
import proofs.«122762_j20615843021401_2_alg».proof.Pre_finite_inputs
import proofs.«122762_j20615843021401_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Decode

open Cert.Pre_finite_inputs Cert.Pre_finite_inputs.Facts Idealize.ShloMosaic

instance : Subsingleton S_.Idx := ⟨fun a b => funext fun d => d.elim0⟩

/-- The word 0x7F800000 is +∞. -/
theorem inf_word : Ideal.ofBits .f32 0x7F800000#32 = ⊤ := by simp [Ideal.ofBits, Ideal.ieee]

/-- An extended real whose absolute value is below +∞ is a real number. -/
theorem real_of_abs_lt_top (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- One entry of an array compared, in absolute value, with the +∞ splat. -/
theorem real_of_bit {S : Shape} (hb : S_.BroadcastsInDim S (![] : Fin 0 → Fin S.rank)) (x : FVec Ideal S .f32) (j : S.Idx)
    (h : cmpf .olt (Host.absf x) (broadcastInDim S ![] hb (constant (F := Ideal) S_ .f32 0x7F800000#32)) j = 1#1) :
    ∃ r : ℝ, x j = r := by
  have e : cmpf .olt (Host.absf x) (broadcastInDim S ![] hb (constant (F := Ideal) S_ .f32 0x7F800000#32)) j
      = Ideal.cmp .olt (max (x j) (-(x j))) ⊤ := by
    show Ideal.cmp .olt (max (x j) (-(x j))) (broadcastInDim S ![] hb (constant (F := Ideal) S_ .f32 0x7F800000#32) j) = _
    rw [broadcastInDim_apply _ hb _ j ValueIdx.ix0 (fun a => a.elim0)]
    show Ideal.cmp .olt _ (Ideal.ofBits .f32 0x7F800000#32) = _
    rw [inf_word]
  exact real_of_abs_lt_top _ (e ▸ h)

/-- One count compared with the zero splat: it is not zero. -/
theorem ne_zero_of_bit {S : Shape} (hb : S_.BroadcastsInDim S (![] : Fin 0 → Fin S.rank)) (x : FVec Ideal S .f32) (j : S.Idx)
    (h : cmpf .une x (broadcastInDim S ![] hb (constant (F := Ideal) S_ .f32 0x00000000#32)) j = 1#1) : x j ≠ 0 := by
  have e : cmpf .une x (broadcastInDim S ![] hb (constant (F := Ideal) S_ .f32 0x00000000#32)) j
      = Ideal.cmp .une (x j) 0 := by
    show Ideal.cmp .une (x j) (broadcastInDim S ![] hb (constant (F := Ideal) S_ .f32 0x00000000#32) j) = _
    rw [broadcastInDim_apply _ hb _ j ValueIdx.ix0 (fun a => a.elim0)]
    show Ideal.cmp .une _ (Ideal.ofBits .f32 0x00000000#32) = _
    rw [Ideal.ofBits_zero_f32]
  rw [e] at h
  intro h0
  rw [h0] at h
  simp [Ideal.cmp] at h

/-- The precondition, decoded. -/
theorem decode (a0 : FVec Ideal S4x64x4000 .f32) (a1 : FVec Ideal S4x4000x6000 .f32) (a2 : FVec Ideal S4x6000 .f32)
    (h : fn (F := Ideal) a0 a1 a2 = fun _ => 1#1) :
    (∀ j, ∃ r : ℝ, a0 j = r) ∧ (∀ j, ∃ r : ℝ, a1 j = r) ∧ (∀ j, ∃ r : ℝ, a2 j = r ∧ r ≠ 0) := by
  have h1 := congrFun h ValueIdx.ix0
  dsimp only [fn, fn_part1] at h1
  obtain ⟨h13, h16⟩ := IntOp.andi_eq_one.1 h1
  obtain ⟨h8, h12⟩ := IntOp.andi_eq_one.1 h13
  obtain ⟨h3, h7⟩ := IntOp.andi_eq_one.1 h8
  refine ⟨fun j => ?_, fun j => ?_, fun j => ?_⟩
  · exact real_of_bit bcast_S_S4x64x4000 a0 j (Host.reduce_andi_all _ _ _ _ _ h3 j)
  · exact real_of_bit bcast_S_S4x4000x6000 a1 j (Host.reduce_andi_all _ _ _ _ _ h7 j)
  · obtain ⟨r, hr⟩ := real_of_bit bcast_S_S4x6000 a2 j (Host.reduce_andi_all _ _ _ _ _ h12 j)
    have hne := ne_zero_of_bit bcast_S_S4x6000 a2 j (Host.reduce_andi_all _ _ _ _ _ h16 j)
    refine ⟨r, hr, fun hr0 => hne ?_⟩
    rw [hr, hr0]; rfl

end Cert.Pre_finite_inputs.Decode

end
-- ==== Proof.lean ====
/-
  The kernel computes out(b, f, t) = (∑ₑ features(b, f, e) · group(b, e, t)) · (1 / occurrences(b, t)): the reciprocal of the
  counts is taken once on the host, the product runs tile by tile over a 4 × 8 grid (batch × 768-column tile of the
  6000-column axis, the last tile cut at the axis' end), and each tile is scaled column by column. The reference computes
  out(b, f, t) = ∑ₑ features(b, f, e) · (group(b, e, t) / occurrences(b, t)).

  On the extended reals the two agree when every input entry is a real number and no count is zero (the precondition):
  then the division is the product with the reciprocal in ℝ, and the factor 1 / occurrences(b, t), which does not depend
  on e, moves out of the finite sum. Outside that domain they differ (at a zero count the reference's quotient is an
  infinity or the junk value of 0 / 0, which the kernel's product with 1 / 0 need not reproduce), which is why the
  precondition excludes zero counts.

  The five claims:
  · the kernel as printed terminates, faults nowhere and leaves its arguments unchanged (the launch with the output
    window's contents left unnamed: WordRun);
  · the same for the idealized kernel, read off its run with the result named (IdealWhole);
  · the same for the reference, read off its run (the generated run of its four host operations);
  · the idealization rewrote no operation, so there is nothing to preserve;
  · the idealized kernel's result is the scaled product of the arguments (IdealWhole: each step's stored tile, on the
    columns inside the array, is the tile of the scaled product; the tiles cover the array), the reference's result is
    the product with the quotient (RefTerm), and under the precondition (PreDecode) the two are one function
    (UnrollSpec).
-/
import proofs.«122762_j20615843021401_2_alg».proof.Defs
import proofs.«122762_j20615843021401_2_alg».proof.Proof.Gen.Kernel
import proofs.«122762_j20615843021401_2_alg».proof.Proof.Gen.KernelIdeal
import proofs.«122762_j20615843021401_2_alg».proof.Proof.Gen.ReferenceIdeal
import proofs.«122762_j20615843021401_2_alg».proof.Proof.Gen.Pre_finite_inputs
import proofs.«122762_j20615843021401_2_alg».proof.Proof.WordRun
import proofs.«122762_j20615843021401_2_alg».proof.Proof.IdealWhole
import proofs.«122762_j20615843021401_2_alg».proof.Proof.RefTerm
import proofs.«122762_j20615843021401_2_alg».proof.Proof.PreDecode
import Idealize.ShloMosaic.Adequacy
import Idealize.ShloMosaic.Init

noncomputable section

namespace Cert.Proof

open Idealize.ShloMosaic Idealize.SL.Sem

/-- The kernel as printed runs to the end and leaves its arguments unchanged. -/
theorem frame_word : Cert.frame_Kernel := fun m ρ _ => Cert.Kernel.Run.frame (F := Bits) m ρ

/-- So does the idealized kernel: its run with the result named, the result dropped. -/
theorem frame_ideal : Cert.frame_KernelIdeal := fun m ρ _ =>
  (θ_run Cert.KernelIdeal.defs _ _).mono (fun _ h c => (h c).2) (Cert.KernelIdeal.Whole.run m ρ)

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on real-valued arguments with no zero count, the idealized kernel ends at the scaled product
    and the reference at the product with the quotient of the same arrays: one function. -/
theorem algebraic : Cert.algebraic_KernelIdeal_ReferenceIdeal := by
  intro m ρ m' ρ' hpre hagree
  refine ⟨fun c => Cert.KernelIdeal.Whole.Gout m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefTerm.reference_eq,
    (hagree c).1, (hagree c).2.1, (hagree c).2.2]
  obtain ⟨h0, h1, h2⟩ := Cert.Pre_finite_inputs.Decode.decode _ _ _ (hpre c)
  exact Unroll.productOfQuotient_eq_scaledProduct _ _ _ h0 h1 h2

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
